-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x4096 : Shape := ⟨2, ![1024, 4096]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S1024x4096 .f32) (main_arg5 : FVec F S4096 .f32) (main_arg6 : FVec F S4096 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S4096x1024 .f32) (main_arg1 : FVec F S4096x1024 .f32) (main_arg2 : FVec F S4096x1024 .f32) (main_arg3 : FVec F S1024x4096 .f32) (main_arg4 : FVec F S1024x4096 .f32) (main_arg5 : FVec F S4096 .f32) (main_arg6 : FVec F S4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_v13 main_v16
-- ==== Kernel.lean ====
abbrev S4096x1024 : Shape := ⟨2, ![4096, 1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 13
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x4096, .f32⟩
  | .hbm, ⟨4, _⟩ => ⟨S1024x4096, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S1x4096, .f32⟩
  | .hbm, ⟨9, _⟩ => ⟨S1024x4096, .bf16⟩
  | .hbm, ⟨10, _⟩ => ⟨S1024x4096, .bf16⟩
  | .hbm, ⟨11, _⟩ => ⟨S4096x1024, .f32⟩
  | .hbm, ⟨12, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4096_S1x4096 : S4096.ShapeCasts S1x4096
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where
  halias0_7 : Pipeline.Aliased win0 2 7

variable [Facts]
-- ==== ReferenceIdeal.lean ====
abbrev S4096x1024 : Shape := ⟨2, ![4096, 1024]⟩
abbrev S1024x4096 : Shape := ⟨2, ![1024, 4096]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x4096, .f32⟩
  | .hbm, ⟨4, _⟩ => ⟨S1024x4096, .f32⟩
  | .hbm, ⟨5, _⟩ => ⟨S4096, .f32⟩
  | .hbm, ⟨6, _⟩ => ⟨S4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096, .f32⟩
  | .hbm, ⟨11, _⟩ => ⟨S1x4096, .f32⟩
  | .hbm, ⟨12, _⟩ => ⟨S4096x4096, .f32⟩
  | .hbm, ⟨13, _⟩ => ⟨S4096x4096, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KernelGates.lean ====
/-
  The kernel body's pre-activation block, read at one entry.

  At each grid point the body loads a band of 256 rows of `x` and of `h`, the two weight matrices whole and the
  summed bias as a row [1, 4096], and forms the block [256, 4096]

      (x_band · wi + h_band · wh) + bias_row (repeated down the 256 rows).

  Each product is a matrix product accumulated into zero, so entry (p, q) is a plain sum over the 1024 features;
  the change of the activations' float format before the product is the identity on extended reals; the bias row,
  repeated down the rows, contributes its entry (0, q). Hence entry (p, q) is

      (Σₖ x_band[p,k]·wi[k,q] + Σₖ h_band[p,k]·wh[k,q]) + bias_row[0,q].
-/
import proofs.«151122_j13030930776239_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Gates

open Cert.KernelIdeal Cert.KernelIdeal.Gen Idealize.ShloMosaic Idealize.ShloMosaic.ValueIdx

/-! ## The operand indices of the block product [256,1024] × [1024,4096] -/

theorem lhs_row (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide),
    dif_pos (show (0 : Fin S256x1024.rank) ∈ dot_S256x1024_S1024x4096_S256x4096_1_0_0_1_n_n.lhsNonContracting by decide)]
  rfl

theorem lhs_feature (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q

theorem rhs_feature (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q

theorem rhs_col (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide),
    dif_pos (show (1 : Fin S1024x4096.rank) ∈ dot_S256x1024_S1024x4096_S256x4096_1_0_0_1_n_n.rhsNonContracting by decide)]
  rfl

/-- A band times a weight matrix, accumulated into zero, at entry (p, q): the sum over the features. -/
theorem band_product_apply (A : FVec Ideal S256x1024 .bf16) (B : FVec Ideal S1024x4096 .bf16) (p : Fin 256) (q : Fin 4096) :
    matmul dot_S256x1024_S1024x4096_S256x4096_1_0_0_1_n_n none A B (constant (F := Ideal) S256x4096 .f32 0x00000000#32) (ix2 p q)
      = ∑ k : Fin 1024, A (ix2 p k) * B (ix2 k q) := by
  simp only [matmul]
  rw [Ideal.matmul_constant_zero_apply,
    ← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 p q)
      ((contrEquiv1 dot_S256x1024_S1024x4096_S256x4096_1_0_0_1_n_n 1024 rfl rfl).symm k) = ix2 p k :=
    funext fun a => Fin.ext (by
      match a with
      | ⟨0, _⟩ => exact lhs_row _ _
      | ⟨1, _⟩ => exact (lhs_feature _ _).trans hk)
  have er : dot_S256x1024_S1024x4096_S256x4096_1_0_0_1_n_n.rhsIdx (ix2 p q)
      ((contrEquiv1 dot_S256x1024_S1024x4096_S256x4096_1_0_0_1_n_n 1024 rfl rfl).symm k) = ix2 k q :=
    funext fun a => Fin.ext (by
      match a with
      | ⟨0, _⟩ => exact (rhs_feature _ _).trans hk
      | ⟨1, _⟩ => exact rhs_col _ _)
  rw [el, er]

/-- The bias row repeated down the 256 rows, at entry (p, q), is the row's entry (0, q). -/
theorem bias_rows_apply (b : FVec Ideal S1x4096 .f32) (p : Fin 256) (q : Fin 4096) :
    broadcastTo S256x4096 b broadcasts_S1x4096_S256x4096 (ix2 p q) = b (ix2 0 q) :=
  broadcastTo_apply b broadcasts_S1x4096_S256x4096 (ix2 p q) (ix2 0 q) (fun a => match a with
    | ⟨0, _⟩ => by show 0 = if (1 : Nat) = 1 then 0 else _; rw [if_pos rfl]
    | ⟨1, _⟩ => by show q.val = if (4096 : Nat) = 1 then 0 else q.val; rw [if_neg (by decide)])

/-- The pre-activation block at entry (p, q). -/
theorem pre_block_apply (P0 P1 : Vec Ideal S256x1024 .f32) (P2 P3 : Vec Ideal S1024x4096 .bf16) (P4 : Vec Ideal S1x4096 .f32)
    (p : Fin 256) (q : Fin 4096) :
    k0_pay1 (F := Ideal) P0 P1 P2 P3 P4 (ix2 p q)
      = (∑ k : Fin 1024, P0 (ix2 p k) * P2 (ix2 k q) + ∑ k : Fin 1024, P1 (ix2 p k) * P3 (ix2 k q)) + P4 (ix2 0 q) := by
  unfold k0_pay1
  rw [addf_apply, addf_apply, band_product_apply, band_product_apply, bias_rows_apply, shapeCast_self, shapeCast_self,
    shapeCast_self]
  rfl

end Cert.KernelIdeal.Gates

end
-- ==== Proof.CellSpec.lean ====
/-
  The LSTM cell as mathematics, independent of either program.

  Inputs: activations `x`, `h`, `c` (4096 rows, 1024 features), weights `wi`, `wh` (1024 × 4096) and two biases
  of length 4096. For row `r` and gate column `q` the pre-activation is

      pre r q = (Σₖ x[r,k]·wi[k,q] + Σₖ h[r,k]·wh[k,q]) + (bi[q] + bh[q]),

  the 4096 gate columns being four bands of 1024: input, forget, candidate, output. With σ the logistic function,

      c'[r,j] = σ(pre r (1024+j)) · c[r,j] + σ(pre r j) · tanh(pre r (2048+j)),
      h'[r,j] = σ(pre r (3072+j)) · tanh(c'[r,j]).

  Everything is over the extended reals; no step below uses finiteness, commutativity or distributivity: the two
  programs compute these very expressions, grouped and ordered as written here.

  Row `r` of both results depends only on row `r` of `x`, `h`, `c`: that is why a program may compute the rows in
  bands of 256 (`rowOf`), each band from the band of the activations alone.
-/
import Idealize.ShloMosaic.PureOps.Ideal
import Idealize.ShloMosaic.Lib.ValueIdx

noncomputable section

open scoped BigOperators

namespace Cert.LstmCell

open Idealize.ShloMosaic Idealize.ShloMosaic.ValueIdx

/-- Index sets: activations (row, feature), weights (feature, gate column), biases (gate column). -/
abbrev ActIdx : Type := (⟨2, ![4096, 1024]⟩ : Shape).Idx
abbrev WgtIdx : Type := (⟨2, ![1024, 4096]⟩ : Shape).Idx
abbrev BiasIdx : Type := (⟨1, ![4096]⟩ : Shape).Idx

/-- The four bands of gate columns belonging to feature `j`. -/
def colI (j : Fin 1024) : Fin 4096 := ⟨j.val, by have := j.isLt; omega⟩
def colF (j : Fin 1024) : Fin 4096 := ⟨j.val + 1024, by have := j.isLt; omega⟩
def colG (j : Fin 1024) : Fin 4096 := ⟨j.val + 2048, by have := j.isLt; omega⟩
def colO (j : Fin 1024) : Fin 4096 := ⟨j.val + 3072, by have := j.isLt; omega⟩

/-- Row `p` of band `b` (sixteen bands of 256 rows). -/
def rowOf (b : Fin 16) (p : Fin 256) : Fin 4096 := ⟨b.val * 256 + p.val, by have := b.isLt; have := p.isLt; omega⟩

section
variable (x h c : ActIdx → EReal) (wi wh : WgtIdx → EReal) (bi bh : BiasIdx → EReal)

/-- The pre-activation of gate column `q` in row `r`. -/
def gatePre (r : Fin 4096) (q : Fin 4096) : EReal :=
  (∑ k : Fin 1024, x (ix2 r k) * wi (ix2 k q) + ∑ k : Fin 1024, h (ix2 r k) * wh (ix2 k q)) + (bi (ix1 q) + bh (ix1 q))

/-- The new cell state at row `r`, feature `j`. -/
def cellAt (r : Fin 4096) (j : Fin 1024) : EReal :=
  Ideal.logistic (gatePre x h wi wh bi bh r (colF j)) * c (ix2 r j)
    + Ideal.logistic (gatePre x h wi wh bi bh r (colI j)) * Ideal.tanh (gatePre x h wi wh bi bh r (colG j))

/-- The new hidden state at row `r`, feature `j`. -/
def hiddenAt (r : Fin 4096) (j : Fin 1024) : EReal :=
  Ideal.logistic (gatePre x h wi wh bi bh r (colO j)) * Ideal.tanh (cellAt x h c wi wh bi bh r j)

/-- The new cell state as one array. -/
def cellArr : ActIdx → EReal := fun i => cellAt x h c wi wh bi bh (i 0) (i 1)

/-- The new hidden state as one array. -/
def hiddenArr : ActIdx → EReal := fun i => hiddenAt x h c wi wh bi bh (i 0) (i 1)

end

/-- The logistic function spelt with a quotient, `1 / (1 + e^(-v))`, is the logistic function: the very definition. -/
theorem logistic_spelt (v : EReal) : Ideal.div 1 (1 + Ideal.exp (-v)) = Ideal.logistic v := rfl

end Cert.LstmCell

end
-- ==== Proof.KernelBand.lean ====
/-
  One band of the kernel's output, as the specification's rows.

  At a grid point the body holds six loaded blocks: a band of 256 rows of `x`, of `h` and of `c`, the two weight
  matrices, and the bias row. Suppose the bands are rows `rowOf b ·` of arrays `X`, `H`, `C`, the weight blocks are
  `Wi`, `Wh`, and the bias row holds `Bi + Bh`. Then

    * entry (p, q) of the pre-activation block is `gatePre` at row `rowOf b p`, column q;
    * the block stored to the cell output holds `cellAt` at row `rowOf b p`;
    * the block stored to the hidden output holds `hiddenAt` at row `rowOf b p`

  — the output blocks read their four gates from the pre-activation block at column offsets 0, 1024, 2048, 3072, which
  are the specification's four bands of gate columns.
-/
import proofs.«151122_j13030930776239_2_alg».proof.Proof.Gen.KernelIdeal.Value
import proofs.«151122_j13030930776239_2_alg».proof.Proof.KernelGates
import proofs.«151122_j13030930776239_2_alg».proof.Proof.CellSpec

noncomputable section

open scoped BigOperators

namespace Cert.KernelIdeal.Band

open Cert.KernelIdeal Cert.KernelIdeal.Gen Idealize.ShloMosaic Idealize.ShloMosaic.ValueIdx Cert.LstmCell

theorem zero_offsets : (![0, 0] : Fin 2 → Nat) = fun _ => 0 := funext fun a => by fin_cases a <;> rfl

section
variable (X H C : ActIdx → EReal) (Wi Wh : WgtIdx → EReal) (Bi Bh : BiasIdx → EReal)
variable (P0 P1 P5 : Vec Ideal S256x1024 .f32) (P2 P3 : Vec Ideal S1024x4096 .bf16) (P4 : Vec Ideal S1x4096 .f32) (b : Fin 16)

/-- The pre-activation block's entry (p, q) is the specification's pre-activation of row `rowOf b p`. -/
theorem pre_band
    (h0 : ∀ (p : Fin 256) (k : Fin 1024), P0 (ix2 p k) = X (ix2 (rowOf b p) k))
    (h1 : ∀ (p : Fin 256) (k : Fin 1024), P1 (ix2 p k) = H (ix2 (rowOf b p) k))
    (h2 : ∀ (k : Fin 1024) (q : Fin 4096), P2 (ix2 k q) = Wi (ix2 k q))
    (h3 : ∀ (k : Fin 1024) (q : Fin 4096), P3 (ix2 k q) = Wh (ix2 k q))
    (h4 : ∀ q : Fin 4096, P4 (ix2 0 q) = Bi (ix1 q) + Bh (ix1 q))
    (p : Fin 256) (q : Fin 4096) :
    k0_pay1 (F := Ideal) P0 P1 P2 P3 P4 (ix2 p q) = gatePre X H Wi Wh Bi Bh (rowOf b p) q := by
  rw [Gates.pre_block_apply]
  unfold gatePre
  simp only [h0, h1, h2, h3, h4]

/-- The cell output's block at (p, j). -/
theorem cell_band
    (h0 : ∀ (p : Fin 256) (k : Fin 1024), P0 (ix2 p k) = X (ix2 (rowOf b p) k))
    (h1 : ∀ (p : Fin 256) (k : Fin 1024), P1 (ix2 p k) = H (ix2 (rowOf b p) k))
    (h5 : ∀ (p : Fin 256) (j : Fin 1024), P5 (ix2 p j) = C (ix2 (rowOf b p) j))
    (h2 : ∀ (k : Fin 1024) (q : Fin 4096), P2 (ix2 k q) = Wi (ix2 k q))
    (h3 : ∀ (k : Fin 1024) (q : Fin 4096), P3 (ix2 k q) = Wh (ix2 k q))
    (h4 : ∀ q : Fin 4096, P4 (ix2 0 q) = Bi (ix1 q) + Bh (ix1 q))
    (p : Fin 256) (j : Fin 1024) :
    Value.E7 (F := Ideal) P0 P1 P2 P3 P4 P5 (ix2 p j) = cellAt X H C Wi Wh Bi Bh (rowOf b p) j := by
  have e0 : Value.ix7_0 (ix2 p j) = ix2 p (colF j) := funext fun a => Fin.ext (by
    match a with | ⟨0, _⟩ => rfl | ⟨1, _⟩ => rfl)
  have e1 : Value.ix7_1 (ix2 p j) = ix2 p j := funext fun a => Fin.ext (by
    match a with | ⟨0, _⟩ => rfl | ⟨1, _⟩ => rfl)
  have e2 : Value.ix7_2 (ix2 p j) = ix2 p (colI j) := funext fun a => Fin.ext (by
    match a with | ⟨0, _⟩ => rfl | ⟨1, _⟩ => rfl)
  have e3 : Value.ix7_3 (ix2 p j) = ix2 p (colG j) := funext fun a => Fin.ext (by
    match a with | ⟨0, _⟩ => rfl | ⟨1, _⟩ => rfl)
  show FloatOps.addf (FloatOps.mulf (FloatOps.logistic (k0_pay1 (F := Ideal) P0 P1 P2 P3 P4 (Value.ix7_0 (ix2 p j)))) (P5 (Value.ix7_1 (ix2 p j))))
      (FloatOps.mulf (FloatOps.logistic (k0_pay1 (F := Ideal) P0 P1 P2 P3 P4 (Value.ix7_2 (ix2 p j))))
        (FloatOps.tanh (k0_pay1 (F := Ideal) P0 P1 P2 P3 P4 (Value.ix7_3 (ix2 p j))))) = _
  rw [e0, e1, e2, e3, pre_band X H Wi Wh Bi Bh P0 P1 P2 P3 P4 b h0 h1 h2 h3 h4, pre_band X H Wi Wh Bi Bh P0 P1 P2 P3 P4 b h0 h1 h2 h3 h4,
    pre_band X H Wi Wh Bi Bh P0 P1 P2 P3 P4 b h0 h1 h2 h3 h4, h5]
  rfl

/-- The hidden output's block at (p, j). -/
theorem hidden_band
    (h0 : ∀ (p : Fin 256) (k : Fin 1024), P0 (ix2 p k) = X (ix2 (rowOf b p) k))
    (h1 : ∀ (p : Fin 256) (k : Fin 1024), P1 (ix2 p k) = H (ix2 (rowOf b p) k))
    (h5 : ∀ (p : Fin 256) (j : Fin 1024), P5 (ix2 p j) = C (ix2 (rowOf b p) j))
    (h2 : ∀ (k : Fin 1024) (q : Fin 4096), P2 (ix2 k q) = Wi (ix2 k q))
    (h3 : ∀ (k : Fin 1024) (q : Fin 4096), P3 (ix2 k q) = Wh (ix2 k q))
    (h4 : ∀ q : Fin 4096, P4 (ix2 0 q) = Bi (ix1 q) + Bh (ix1 q))
    (p : Fin 256) (j : Fin 1024) :
    Value.E6 (F := Ideal) P0 P1 P2 P3 P4 P5 (ix2 p j) = hiddenAt X H C Wi Wh Bi Bh (rowOf b p) j := by
  have e0 : Value.ix6_0 (ix2 p j) = ix2 p (colO j) := funext fun a => Fin.ext (by
    match a with | ⟨0, _⟩ => rfl | ⟨1, _⟩ => rfl)
  have e1 : Value.ix6_1 (ix2 p j) = ix2 p (colF j) := funext fun a => Fin.ext (by
    match a with | ⟨0, _⟩ => rfl | ⟨1, _⟩ => rfl)
  have e2 : Value.ix6_2 (ix2 p j) = ix2 p j := funext fun a => Fin.ext (by
    match a with | ⟨0, _⟩ => rfl | ⟨1, _⟩ => rfl)
  have e3 : Value.ix6_3 (ix2 p j) = ix2 p (colI j) := funext fun a => Fin.ext (by
    match a with | ⟨0, _⟩ => rfl | ⟨1, _⟩ => rfl)
  have e4 : Value.ix6_4 (ix2 p j) = ix2 p (colG j) := funext fun a => Fin.ext (by
    match a with | ⟨0, _⟩ => rfl | ⟨1, _⟩ => rfl)
  show FloatOps.mulf (FloatOps.logistic (k0_pay1 (F := Ideal) P0 P1 P2 P3 P4 (Value.ix6_0 (ix2 p j))))
      (FloatOps.tanh (FloatOps.addf
        (FloatOps.mulf (FloatOps.logistic (k0_pay1 (F := Ideal) P0 P1 P2 P3 P4 (Value.ix6_1 (ix2 p j)))) (P5 (Value.ix6_2 (ix2 p j))))
        (FloatOps.mulf (FloatOps.logistic (k0_pay1 (F := Ideal) P0 P1 P2 P3 P4 (Value.ix6_3 (ix2 p j))))
          (FloatOps.tanh (k0_pay1 (F := Ideal) P0 P1 P2 P3 P4 (Value.ix6_4 (ix2 p j))))))) = _
  rw [e0, e1, e2, e3, e4, pre_band X H Wi Wh Bi Bh P0 P1 P2 P3 P4 b h0 h1 h2 h3 h4, pre_band X H Wi Wh Bi Bh P0 P1 P2 P3 P4 b h0 h1 h2 h3 h4,
    pre_band X H Wi Wh Bi Bh P0 P1 P2 P3 P4 b h0 h1 h2 h3 h4, pre_band X H Wi Wh Bi Bh P0 P1 P2 P3 P4 b h0 h1 h2 h3 h4, h5]
  rfl

/-- What the body leaves in the cell output's staging block, at any of its entries. -/
theorem cell_block
    (h0 : ∀ (p : Fin 256) (k : Fin 1024), P0 (ix2 p k) = X (ix2 (rowOf b p) k))
    (h1 : ∀ (p : Fin 256) (k : Fin 1024), P1 (ix2 p k) = H (ix2 (rowOf b p) k))
    (h5 : ∀ (p : Fin 256) (j : Fin 1024), P5 (ix2 p j) = C (ix2 (rowOf b p) j))
    (h2 : ∀ (k : Fin 1024) (q : Fin 4096), P2 (ix2 k q) = Wi (ix2 k q))
    (h3 : ∀ (k : Fin 1024) (q : Fin 4096), P3 (ix2 k q) = Wh (ix2 k q))
    (h4 : ∀ q : Fin 4096, P4 (ix2 0 q) = Bi (ix1 q) + Bh (ix1 q))
    (y : S256x1024.Idx) :
    out0_7 (F := Ideal) P0 P1 P5 P2 P3 P4 y = cellAt X H C Wi Wh Bi Bh (rowOf b (y 0)) (y 1) := by
  unfold out0_7
  simp only [View.ld_unit_zero (S := S256x1024) zero_offsets, View.ld_unit_zero (S := S1024x4096) zero_offsets,
    View.ld_unit_zero (S := S1x4096) zero_offsets]
  refine (Value.canon7_eq P0 P1 P2 P3 P4 P5 y).trans ?_
  obtain ⟨p, j, rfl⟩ : ∃ (p : Fin 256) (j : Fin 1024), y = ix2 p j := ⟨y 0, y 1, eq_ix2 y⟩
  exact cell_band X H C Wi Wh Bi Bh P0 P1 P5 P2 P3 P4 b h0 h1 h5 h2 h3 h4 p j

/-- What the body leaves in the hidden output's staging block, at any of its entries. -/
theorem hidden_block
    (h0 : ∀ (p : Fin 256) (k : Fin 1024), P0 (ix2 p k) = X (ix2 (rowOf b p) k))
    (h1 : ∀ (p : Fin 256) (k : Fin 1024), P1 (ix2 p k) = H (ix2 (rowOf b p) k))
    (h5 : ∀ (p : Fin 256) (j : Fin 1024), P5 (ix2 p j) = C (ix2 (rowOf b p) j))
    (h2 : ∀ (k : Fin 1024) (q : Fin 4096), P2 (ix2 k q) = Wi (ix2 k q))
    (h3 : ∀ (k : Fin 1024) (q : Fin 4096), P3 (ix2 k q) = Wh (ix2 k q))
    (h4 : ∀ q : Fin 4096, P4 (ix2 0 q) = Bi (ix1 q) + Bh (ix1 q))
    (y : S256x1024.Idx) :
    out0_6 (F := Ideal) P0 P1 P5 P2 P3 P4 y = hiddenAt X H C Wi Wh Bi Bh (rowOf b (y 0)) (y 1) := by
  unfold out0_6
  simp only [View.ld_unit_zero (S := S256x1024) zero_offsets, View.ld_unit_zero (S := S1024x4096) zero_offsets,
    View.ld_unit_zero (S := S1x4096) zero_offsets]
  refine (Value.canon6_eq P0 P1 P2 P3 P4 P5 y).trans ?_
  obtain ⟨p, j, rfl⟩ : ∃ (p : Fin 256) (j : Fin 1024), y = ix2 p j := ⟨y 0, y 1, eq_ix2 y⟩
  exact hidden_band X H C Wi Wh Bi Bh P0 P1 P5 P2 P3 P4 b h0 h1 h5 h2 h3 h4 p j

end

end Cert.KernelIdeal.Band

end
-- ==== Proof.KernelRun.lean ====
/-
  The kernel's two result arrays after its run are the specification's arrays.

  The grid has sixteen points; point `t` works on rows 256·t … 256·t + 255. Its blocks of `x`, `h`, `c` are those rows
  of the argument arrays; the weight blocks are the whole weight arrays, which the program prepared before the
  region by a change of float format (the identity on extended reals); the bias block is the row [1, 4096]
  prepared as the sum of the two bias vectors. So by the band lemmas point `t` writes back, to each result, exactly
  rows 256·t … of the specification's array. The sixteen bands cover all 4096 rows, hence each result array ends
  equal to the specification's.
-/
import proofs.«151122_j13030930776239_2_alg».proof.Proof.Gen.KernelIdeal.Value
import proofs.«151122_j13030930776239_2_alg».proof.Proof.KernelBand
import Idealize.ShloMosaic.Lib.StableHlo.Run

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.LstmCell Idealize.ShloMosaic.StableHlo
open Idealize.ShloMosaic.Pipeline (Dat)

variable (m : (ℓ : Loc nD τ sig) → Buf (Elt Ideal) ℓ) (ρ : Dev nD → PrngReg)

/-! ## Which block each window holds at point `t` -/

/-- Decided over the sixteen points: the activations' and the results' windows are on row band `t`, the weights'
    and the bias's on their one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## What the region finds in the arrays prepared before it -/

theorem entry_wi (c : Dev nD) :
    (V m c main_v2 : S1024x4096.Idx → EReal)
      = truncf (F := Ideal) (s := S1024x4096) (φ := .f32) .bf16 (m ((c : Thread nD τ).loc main_arg3)) bitsLt_bf16_f32 := by
  dsimp only [Gen.V, Gen.hostOps0]; after_results

theorem entry_wh (c : Dev nD) :
    (V m c main_v3 : S1024x4096.Idx → EReal)
      = truncf (F := Ideal) (s := S1024x4096) (φ := .f32) .bf16 (m ((c : Thread nD τ).loc main_arg4)) bitsLt_bf16_f32 := by
  dsimp only [Gen.V, Gen.hostOps0]; after_results

theorem entry_bias (c : Dev nD) :
    (V m c main_v1 : S1x4096.Idx → EReal)
      = shapeCast (s := S4096) (α := EReal) S1x4096
          (addf (F := Ideal) (s := S4096) (φ := .f32) (m ((c : Thread nD τ).loc main_arg5)) (m ((c : Thread nD τ).loc main_arg6)))
          shapeCasts_S4096_S1x4096 := by
  dsimp only [Gen.V, Gen.hostOps0]; after_results; rfl

/-! ## The input blocks at point `t` -/

/-- The band of `x`. -/
theorem x_block (c : Dev nD) (t : Fin cfg0.N) (p : Fin 256) (k : Fin 1024) :
    iblk m c 0 t (ix2 p k : S256x1024.Idx) = m ((c : Thread nD τ).loc main_arg0) (ix2 (rowOf t p) k) := by
  obtain ⟨e0, e1, -⟩ := block_indices t
  show V m c main_arg0 (((cfg0.win 0).blk t).view.emb (ix2 p k)) = _
  rw [V_main_arg0]
  congr 1; funext a; apply Fin.ext
  match a with
  | ⟨0, _⟩ => show win0_0.index t (0 : Fin 2) * 256 + 1 * p.val = t.val * 256 + p.val; omega
  | ⟨1, _⟩ => show win0_0.index t (1 : Fin 2) * 1024 + 1 * k.val = k.val; omega

/-- The band of `h`. -/
theorem h_block (c : Dev nD) (t : Fin cfg0.N) (p : Fin 256) (k : Fin 1024) :
    iblk m c 1 t (ix2 p k : S256x1024.Idx) = m ((c : Thread nD τ).loc main_arg1) (ix2 (rowOf t p) k) := by
  obtain ⟨-, -, e0, e1, -⟩ := block_indices t
  show V m c main_arg1 (((cfg0.win 1).blk t).view.emb (ix2 p k)) = _
  rw [V_main_arg1]
  congr 1; funext a; apply Fin.ext
  match a with
  | ⟨0, _⟩ => show win0_1.index t (0 : Fin 2) * 256 + 1 * p.val = t.val * 256 + p.val; omega
  | ⟨1, _⟩ => show win0_1.index t (1 : Fin 2) * 1024 + 1 * k.val = k.val; omega

/-- The band of `c`. -/
theorem c_block (c : Dev nD) (t : Fin cfg0.N) (p : Fin 256) (j : Fin 1024) :
    iblk m c 2 t (ix2 p j : S256x1024.Idx) = m ((c : Thread nD τ).loc main_arg2) (ix2 (rowOf t p) j) := by
  obtain ⟨-, -, -, -, e0, e1, -⟩ := block_indices t
  show V m c main_arg2 (((cfg0.win 2).blk t).view.emb (ix2 p j)) = _
  rw [V_main_arg2]
  congr 1; funext a; apply Fin.ext
  match a with
  | ⟨0, _⟩ => show win0_2.index t (0 : Fin 2) * 256 + 1 * p.val = t.val * 256 + p.val; omega
  | ⟨1, _⟩ => show win0_2.index t (1 : Fin 2) * 1024 + 1 * j.val = j.val; omega

/-- The input weights, whole. -/
theorem wi_block (c : Dev nD) (t : Fin cfg0.N) (k : Fin 1024) (q : Fin 4096) :
    iblk m c 3 t (ix2 k q : S1024x4096.Idx) = m ((c : Thread nD τ).loc main_arg3) (ix2 k q) := by
  obtain ⟨-, -, -, -, -, -, e0, e1, -⟩ := block_indices t
  show (V m c main_v2 : S1024x4096.Idx → EReal) (((cfg0.win 3).blk t).view.emb (ix2 k q)) = _
  rw [entry_wi]
  show m ((c : Thread nD τ).loc main_arg3) (((cfg0.win 3).blk t).view.emb (ix2 k q)) = _
  congr 1; funext a; apply Fin.ext
  match a with
  | ⟨0, _⟩ => show win0_3.index t (0 : Fin 2) * 1024 + 1 * k.val = k.val; omega
  | ⟨1, _⟩ => show win0_3.index t (1 : Fin 2) * 4096 + 1 * q.val = q.val; omega

/-- The recurrent weights, whole. -/
theorem wh_block (c : Dev nD) (t : Fin cfg0.N) (k : Fin 1024) (q : Fin 4096) :
    iblk m c 4 t (ix2 k q : S1024x4096.Idx) = m ((c : Thread nD τ).loc main_arg4) (ix2 k q) := by
  obtain ⟨-, -, -, -, -, -, -, -, e0, e1, -⟩ := block_indices t
  show (V m c main_v3 : S1024x4096.Idx → EReal) (((cfg0.win 4).blk t).view.emb (ix2 k q)) = _
  rw [entry_wh]
  show m ((c : Thread nD τ).loc main_arg4) (((cfg0.win 4).blk t).view.emb (ix2 k q)) = _
  congr 1; funext a; apply Fin.ext
  match a with
  | ⟨0, _⟩ => show win0_4.index t (0 : Fin 2) * 1024 + 1 * k.val = k.val; omega
  | ⟨1, _⟩ => show win0_4.index t (1 : Fin 2) * 4096 + 1 * q.val = q.val; omega

/-- The bias row holds the sum of the two bias vectors. -/
theorem bias_block (c : Dev nD) (t : Fin cfg0.N) (q : Fin 4096) :
    iblk m c 5 t (ix2 0 q : S1x4096.Idx)
      = addf (F := Ideal) (s := S4096) (φ := .f32) (m ((c : Thread nD τ).loc main_arg5)) (m ((c : Thread nD τ).loc main_arg6)) (ix1 q) := by
  obtain ⟨-, -, -, -, -, -, -, -, -, -, e0, e1, -⟩ := block_indices t
  show (V m c main_v1 : S1x4096.Idx → EReal) (((cfg0.win 5).blk t).view.emb (ix2 0 q)) = _
  rw [entry_bias]
  have e : ((cfg0.win 5).blk t).view.emb (ix2 (0 : Fin 1) q) = (ix2 (0 : Fin 1) q : S1x4096.Idx) := by
    funext a; apply Fin.ext
    match a with
    | ⟨0, _⟩ => show win0_5.index t (0 : Fin 2) * 1 + 1 * 0 = 0; omega
    | ⟨1, _⟩ => show win0_5.index t (1 : Fin 2) * 4096 + 1 * q.val = q.val; omega
  rw [e]
  refine (shapeCast_apply _ shapeCasts_S4096_S1x4096 (ix2 (0 : Fin 1) q) (ix1 q) ?_).trans rfl
  rw [Shape.rowMajor_val_one, Shape.rowMajor_val_two]
  show q.val = 0 * 4096 + q.val
  omega

/-! ## What point `t` writes back -/

/-- The body's hidden-output block at point `t`, entry `y`: the band lemma at the point's six blocks. -/
theorem hidden_at_point (c : Dev nD) (t : Fin cfg0.N) (y : S256x1024.Idx) :
    out0_6 (F := Ideal) (iblk m c 0 t) (iblk m c 1 t) (iblk m c 2 t) (iblk m c 3 t) (iblk m c 4 t) (iblk m c 5 t) y
      = hiddenAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (rowOf t (y 0)) (y 1) :=
  Band.hidden_block (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))
    (iblk m c 0 t) (iblk m c 1 t) (iblk m c 2 t) (iblk m c 3 t) (iblk m c 4 t) (iblk m c 5 t) t
    (x_block m c t) (h_block m c t) (c_block m c t) (wi_block m c t) (wh_block m c t) (bias_block m c t) y

/-- The body's cell-output block at point `t`, entry `y`. -/
theorem cell_at_point (c : Dev nD) (t : Fin cfg0.N) (y : S256x1024.Idx) :
    out0_7 (F := Ideal) (iblk m c 0 t) (iblk m c 1 t) (iblk m c 2 t) (iblk m c 3 t) (iblk m c 4 t) (iblk m c 5 t) y
      = cellAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (rowOf t (y 0)) (y 1) :=
  Band.cell_block (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))
    (iblk m c 0 t) (iblk m c 1 t) (iblk m c 2 t) (iblk m c 3 t) (iblk m c 4 t) (iblk m c 5 t) t
    (x_block m c t) (h_block m c t) (c_block m c t) (wi_block m c t) (wh_block m c t) (bias_block m c t) y

/-- Point `t` writes back, to the hidden result, band `t` of the specification's hidden array: entry `y` of the
    block lies at row 256·t + y₀, column y₁ of the array. -/
theorem flushed_hidden (c : Dev nD) (t : Fin cfg0.N) :
    (dats m 0 c).flushed 6 t = ((cfg0.win 6).blk t).view.read (Elt Ideal)
      (hiddenArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))) := by
  obtain ⟨-, -, -, -, -, -, -, -, -, -, -, -, e0, e1, -⟩ := block_indices t
  rw [Value.flushed6]
  funext y
  show out0_6 (F := Ideal) (iblk m c 0 t) (iblk m c 1 t) (iblk m c 2 t) (iblk m c 3 t) (iblk m c 4 t) (iblk m c 5 t) y
    = hiddenArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (((cfg0.win 6).blk t).view.emb y)
  have hy0 : (y 0).val < 256 := (y 0).isLt
  have hy1 : (y 1).val < 1024 := (y 1).isLt
  have r0 : rowOf t (y 0) = ((cfg0.win 6).blk t).view.emb y 0 := Fin.ext (by
    show t.val * 256 + (y 0).val = win0_6.index t (0 : Fin 2) * 256 + 1 * (y 0).val
    omega)
  have r1 : y 1 = ((cfg0.win 6).blk t).view.emb y 1 := Fin.ext (by
    show (y 1).val = win0_6.index t (1 : Fin 2) * 1024 + 1 * (y 1).val
    omega)
  refine (hidden_at_point m c t y).trans ?_
  unfold hiddenArr
  exact congrArg₂ (hiddenAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))) r0 r1

/-- Point `t` writes back, to the cell result, band `t` of the specification's cell array. -/
theorem flushed_cell (c : Dev nD) (t : Fin cfg0.N) :
    (dats m 0 c).flushed 7 t = ((cfg0.win 7).blk t).view.read (Elt Ideal)
      (cellArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))) := by
  obtain ⟨-, -, -, -, -, -, -, -, -, -, -, -, -, -, e0, e1⟩ := block_indices t
  rw [Value.flushed7]
  funext y
  show out0_7 (F := Ideal) (iblk m c 0 t) (iblk m c 1 t) (iblk m c 2 t) (iblk m c 3 t) (iblk m c 4 t) (iblk m c 5 t) y
    = cellArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (((cfg0.win 7).blk t).view.emb y)
  have hy0 : (y 0).val < 256 := (y 0).isLt
  have hy1 : (y 1).val < 1024 := (y 1).isLt
  have r0 : rowOf t (y 0) = ((cfg0.win 7).blk t).view.emb y 0 := Fin.ext (by
    show t.val * 256 + (y 0).val = win0_7.index t (0 : Fin 2) * 256 + 1 * (y 0).val
    omega)
  have r1 : y 1 = ((cfg0.win 7).blk t).view.emb y 1 := Fin.ext (by
    show (y 1).val = win0_7.index t (1 : Fin 2) * 1024 + 1 * (y 1).val
    omega)
  refine (cell_at_point m c t y).trans ?_
  unfold cellArr
  exact congrArg₂ (cellAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))) r0 r1

/-! ## The sixteen bands cover the rows -/

theorem mem_hidden_block (t : Fin cfg0.N) (i : S4096x1024.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v4_0).slice (win0_6.rect t)).set ↔ _
  rw [View.set_slice_whole, Rect.mem_set_unit]
  exact Iff.rfl

theorem mem_cell_block (t : Fin cfg0.N) (i : S4096x1024.Idx) :
    i ∈ ((cfg0.win 7).blk t).view.set ↔ ∀ a : Fin 2, win0_7.index t a * S256x1024.size a ≤ (i a).val
      ∧ (i a).val < win0_7.index t a * S256x1024.size a + S256x1024.size a := by
  show i ∈ ((View.whole main_v4_1).slice (win0_7.rect t)).set ↔ _
  rw [View.set_slice_whole, Rect.mem_set_unit]
  exact Iff.rfl

/-- Row `r` lies in band `r / 256`. -/
theorem cover_hidden (i : S4096x1024.Idx) :
    ∃ t : Fin cfg0.N, (cfg0.win 6).flush t = true ∧ i ∈ ((cfg0.win 6).blk t).view.set := by
  have hi0 : (i 0).val < 4096 := (i 0).isLt
  have hi1 : (i 1).val < 1024 := (i 1).isLt
  have hb : (i 0).val / 256 < 16 := by omega
  obtain ⟨-, -, -, -, -, -, -, -, -, -, -, -, e0, e1, -⟩ := block_indices ⟨(i 0).val / 256, hb⟩
  refine ⟨⟨(i 0).val / 256, hb⟩, flush0_6 _, ?_⟩
  rw [mem_hidden_block]
  intro a
  match a with
  | ⟨0, _⟩ =>
    show win0_6.index ⟨(i 0).val / 256, hb⟩ (0 : Fin 2) * 256 ≤ (i 0).val
      ∧ (i 0).val < win0_6.index ⟨(i 0).val / 256, hb⟩ (0 : Fin 2) * 256 + 256
    rw [e0]; show (i 0).val / 256 * 256 ≤ (i 0).val ∧ (i 0).val < (i 0).val / 256 * 256 + 256; omega
  | ⟨1, _⟩ =>
    show win0_6.index ⟨(i 0).val / 256, hb⟩ (1 : Fin 2) * 1024 ≤ (i 1).val
      ∧ (i 1).val < win0_6.index ⟨(i 0).val / 256, hb⟩ (1 : Fin 2) * 1024 + 1024
    rw [e1]; omega

theorem cover_cell (i : S4096x1024.Idx) :
    ∃ t : Fin cfg0.N, (cfg0.win 7).flush t = true ∧ i ∈ ((cfg0.win 7).blk t).view.set := by
  have hi0 : (i 0).val < 4096 := (i 0).isLt
  have hi1 : (i 1).val < 1024 := (i 1).isLt
  have hb : (i 0).val / 256 < 16 := by omega
  obtain ⟨-, -, -, -, -, -, -, -, -, -, -, -, -, -, e0, e1⟩ := block_indices ⟨(i 0).val / 256, hb⟩
  refine ⟨⟨(i 0).val / 256, hb⟩, flush0_7 _, ?_⟩
  rw [mem_cell_block]
  intro a
  match a with
  | ⟨0, _⟩ =>
    show win0_7.index ⟨(i 0).val / 256, hb⟩ (0 : Fin 2) * 256 ≤ (i 0).val
      ∧ (i 0).val < win0_7.index ⟨(i 0).val / 256, hb⟩ (0 : Fin 2) * 256 + 256
    rw [e0]; show (i 0).val / 256 * 256 ≤ (i 0).val ∧ (i 0).val < (i 0).val / 256 * 256 + 256; omega
  | ⟨1, _⟩ =>
    show win0_7.index ⟨(i 0).val / 256, hb⟩ (1 : Fin 2) * 1024 ≤ (i 1).val
      ∧ (i 1).val < win0_7.index ⟨(i 0).val / 256, hb⟩ (1 : Fin 2) * 1024 + 1024
    rw [e1]; omega

/-! ## The result arrays, and the run -/

theorem final_hidden (c : Dev nD) :
    (dats m 0 c).arrAt 6 cfg0.N
      = hiddenArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) :=
  (dats m 0 c).arrAt_eq_of_cover 6 _ (fun t _ => flushed_hidden m c t) cover_hidden

theorem final_cell (c : Dev nD) :
    (dats m 0 c).arrAt 7 cfg0.N
      = cellArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) :=
  (dats m 0 c).arrAt_eq_of_cover 7 _ (fun t _ => flushed_cell m c t) cover_cell

/-- Every weakly fair execution of the kernel program terminates with the hidden result at the specification's hidden
    array and the cell result at the specification's cell array, of the argument arrays as launched, which it leaves
    unchanged. -/
theorem run : θ_run defs (onTc (τ := τ) (main (F := Ideal))) ⟨m, fun _ => 0, ρ⟩ fun r => ∀ c : Dev nD,
      r.2.mem ((c : Thread nD τ).loc main_v4_0)
        = hiddenArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6))
      ∧ r.2.mem ((c : Thread nD τ).loc main_v4_1)
        = cellArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_hidden m c), (h c).2.1.trans (final_cell m c), (h c).2.2⟩)
    (Value.run_blocks m ρ)

end Cert.KernelIdeal.Whole

end
-- ==== Proof.RefCell.lean ====
/-
  The reference program computes the cell of `CellSpec`.

  Read one entry at a time, the reference forms the pre-activation array [4096, 4096] as
  (x·wi + h·wh) + (bi + bh) with the bias sum repeated down the rows, cuts it into the four bands of 1024
  columns, spells each logistic gate as the quotient 1 / (1 + e^(-v)) with the constant one, and combines them as
  c' = σ(f)·c + σ(i)·tanh(g), h' = σ(o)·tanh(c'). The constant one is the real number 1, so each quotient is the
  logistic function by its definition, and every stage is the corresponding term of the specification.
-/
import proofs.«151122_j13030930776239_2_alg».proof.Proof.Gen.ReferenceIdeal.Read
import proofs.«151122_j13030930776239_2_alg».proof.Proof.CellSpec
import Idealize.ShloMosaic.Lib.IdealHost

noncomputable section

open scoped BigOperators

namespace Cert.ReferenceIdeal.Cell

open Cert.ReferenceIdeal Cert.ReferenceIdeal.Read Idealize.ShloMosaic Idealize.ShloMosaic.ValueIdx Cert.LstmCell

variable (x0 x1 x2 : (⟨S4096x1024, .f32⟩ : BufTy).Contents (Elt Ideal)) (x3 x4 : (⟨S1024x4096, .f32⟩ : BufTy).Contents (Elt Ideal))
  (x5 x6 : (⟨S4096, .f32⟩ : BufTy).Contents (Elt Ideal))

/-! ## The pre-activation array -/

/-- Entry (r, q) of the pre-activation array is the specification's pre-activation. -/
theorem pre_apply (r q : Fin 4096) :
    val_main_v6 (F := Ideal) x0 x1 x3 x4 x5 x6 (ix2 r q) = gatePre x0 x1 x3 x4 x5 x6 r q := by
  have el0 : ∀ k : Fin 1024, lidx_main_v0 (ix2 r q) k = ix2 r k := fun k => funext fun a => Fin.ext (by
    match a with | ⟨0, _⟩ => rfl | ⟨1, _⟩ => rfl)
  have er0 : ∀ k : Fin 1024, ridx_main_v0 (ix2 r q) k = ix2 k q := fun k => funext fun a => Fin.ext (by
    match a with | ⟨0, _⟩ => rfl | ⟨1, _⟩ => rfl)
  have el1 : ∀ k : Fin 1024, lidx_main_v1 (ix2 r q) k = ix2 r k := fun k => funext fun a => Fin.ext (by
    match a with | ⟨0, _⟩ => rfl | ⟨1, _⟩ => rfl)
  have er1 : ∀ k : Fin 1024, ridx_main_v1 (ix2 r q) k = ix2 k q := fun k => funext fun a => Fin.ext (by
    match a with | ⟨0, _⟩ => rfl | ⟨1, _⟩ => rfl)
  have eb : idx_main_v4 (idx_main_v5 (ix2 r q)) = ix1 q := funext fun a => Fin.ext (by
    match a with | ⟨0, _⟩ => rfl)
  rw [val_main_v6_apply, val_main_v2_apply, val_main_v0_apply, val_main_v1_apply, val_main_v5_apply, val_main_v4_apply,
    val_main_v3_apply]
  simp only [el0, er0, el1, er1, eb]
  rfl

/-- The input-gate band. -/
theorem band_i_apply (r : Fin 4096) (j : Fin 1024) :
    val_main_v7 (F := Ideal) x0 x1 x3 x4 x5 x6 (ix2 r j) = gatePre x0 x1 x3 x4 x5 x6 r (colI j) := by
  have e : idx_main_v7 (ix2 r j) = ix2 r (colI j) := funext fun a => Fin.ext (by
    match a with | ⟨0, _⟩ => rfl | ⟨1, _⟩ => rfl)
  rw [val_main_v7_apply, e, pre_apply]

/-- The forget-gate band. -/
theorem band_f_apply (r : Fin 4096) (j : Fin 1024) :
    val_main_v8 (F := Ideal) x0 x1 x3 x4 x5 x6 (ix2 r j) = gatePre x0 x1 x3 x4 x5 x6 r (colF j) := by
  have e : idx_main_v8 (ix2 r j) = ix2 r (colF j) := funext fun a => Fin.ext (by
    match a with | ⟨0, _⟩ => rfl | ⟨1, _⟩ => exact Nat.add_comm 1024 j.val)
  rw [val_main_v8_apply, e, pre_apply]

/-- The candidate band. -/
theorem band_g_apply (r : Fin 4096) (j : Fin 1024) :
    val_main_v9 (F := Ideal) x0 x1 x3 x4 x5 x6 (ix2 r j) = gatePre x0 x1 x3 x4 x5 x6 r (colG j) := by
  have e : idx_main_v9 (ix2 r j) = ix2 r (colG j) := funext fun a => Fin.ext (by
    match a with | ⟨0, _⟩ => rfl | ⟨1, _⟩ => exact Nat.add_comm 2048 j.val)
  rw [val_main_v9_apply, e, pre_apply]

/-- The output-gate band. -/
theorem band_o_apply (r : Fin 4096) (j : Fin 1024) :
    val_main_v10 (F := Ideal) x0 x1 x3 x4 x5 x6 (ix2 r j) = gatePre x0 x1 x3 x4 x5 x6 r (colO j) := by
  have e : idx_main_v10 (ix2 r j) = ix2 r (colO j) := funext fun a => Fin.ext (by
    match a with | ⟨0, _⟩ => rfl | ⟨1, _⟩ => exact Nat.add_comm 3072 j.val)
  rw [val_main_v10_apply, e, pre_apply]

/-! ## The gates: each quotient 1 / (1 + e^(-v)) is the logistic function -/

/-- The quotient the reference spells, over the constant one, is the logistic function. -/
theorem quotient_is_logistic (v : EReal) :
    FloatOps.hostDivf (F := Ideal) (φ := .f32) (FloatOps.ofBits .f32 0x3F800000#32)
        (FloatOps.addf (FloatOps.ofBits .f32 0x3F800000#32) (FloatOps.hostUnary .exp (FloatOps.hostNegf v)))
      = Ideal.logistic v := by
  show Ideal.div (Ideal.ofBits .f32 0x3F800000#32) (Ideal.ofBits .f32 0x3F800000#32 + Ideal.exp (-v)) = Ideal.logistic v
  rw [Ideal.ofBits_one_f32]
  rfl

theorem gate_i_apply (r : Fin 4096) (j : Fin 1024) :
    val_main_v16 (F := Ideal) x0 x1 x3 x4 x5 x6 (ix2 r j) = Ideal.logistic (gatePre x0 x1 x3 x4 x5 x6 r (colI j)) := by
  rw [val_main_v16_apply, val_main_v15_apply, val_main_cst_0_apply, val_main_v14_apply, val_main_v13_apply, val_main_cst_apply,
    val_main_v12_apply, val_main_v11_apply, band_i_apply]
  exact quotient_is_logistic _

theorem gate_f_apply (r : Fin 4096) (j : Fin 1024) :
    val_main_v22 (F := Ideal) x0 x1 x3 x4 x5 x6 (ix2 r j) = Ideal.logistic (gatePre x0 x1 x3 x4 x5 x6 r (colF j)) := by
  rw [val_main_v22_apply, val_main_v21_apply, val_main_cst_2_apply, val_main_v20_apply, val_main_v19_apply, val_main_cst_1_apply,
    val_main_v18_apply, val_main_v17_apply, band_f_apply]
  exact quotient_is_logistic _

theorem gate_o_apply (r : Fin 4096) (j : Fin 1024) :
    val_main_v29 (F := Ideal) x0 x1 x3 x4 x5 x6 (ix2 r j) = Ideal.logistic (gatePre x0 x1 x3 x4 x5 x6 r (colO j)) := by
  rw [val_main_v29_apply, val_main_v28_apply, val_main_cst_4_apply, val_main_v27_apply, val_main_v26_apply, val_main_cst_3_apply,
    val_main_v25_apply, val_main_v24_apply, band_o_apply]
  exact quotient_is_logistic _

theorem cand_apply (r : Fin 4096) (j : Fin 1024) :
    val_main_v23 (F := Ideal) x0 x1 x3 x4 x5 x6 (ix2 r j) = Ideal.tanh (gatePre x0 x1 x3 x4 x5 x6 r (colG j)) := by
  rw [val_main_v23_apply, band_g_apply]
  rfl

/-! ## The two results -/

/-- The reference's new cell state at (r, j). -/
theorem cell_apply (r : Fin 4096) (j : Fin 1024) :
    val_main_v32 (F := Ideal) x0 x1 x2 x3 x4 x5 x6 (ix2 r j) = cellAt x0 x1 x2 x3 x4 x5 x6 r j := by
  rw [val_main_v32_apply, val_main_v30_apply, val_main_v31_apply, gate_f_apply, gate_i_apply, cand_apply]
  rfl

/-- The reference's new hidden state at (r, j). -/
theorem hidden_apply (r : Fin 4096) (j : Fin 1024) :
    val_main_v34 (F := Ideal) x0 x1 x2 x3 x4 x5 x6 (ix2 r j) = hiddenAt x0 x1 x2 x3 x4 x5 x6 r j := by
  rw [val_main_v34_apply, val_main_v33_apply, gate_o_apply, cell_apply]
  rfl

/-- The reference's new cell state is the specification's array. -/
theorem cell_eq : val_main_v32 (F := Ideal) x0 x1 x2 x3 x4 x5 x6 = cellArr x0 x1 x2 x3 x4 x5 x6 := by
  funext i
  obtain ⟨r, j, rfl⟩ : ∃ (r : Fin 4096) (j : Fin 1024), i = ix2 r j := ⟨i 0, i 1, eq_ix2 i⟩
  exact cell_apply x0 x1 x2 x3 x4 x5 x6 r j

/-- The reference's new hidden state is the specification's array. -/
theorem hidden_eq : val_main_v34 (F := Ideal) x0 x1 x2 x3 x4 x5 x6 = hiddenArr x0 x1 x2 x3 x4 x5 x6 := by
  funext i
  obtain ⟨r, j, rfl⟩ : ∃ (r : Fin 4096) (j : Fin 1024), i = ix2 r j := ⟨i 0, i 1, eq_ix2 i⟩
  exact hidden_apply x0 x1 x2 x3 x4 x5 x6 r j

end Cert.ReferenceIdeal.Cell

end
-- ==== Proof.lean ====
/-
  An LSTM cell computed in row bands is the LSTM cell.

  The kernel program cuts the 4096 rows of `x`, `h`, `c` into sixteen bands of 256. Before its region it adds the two
  bias vectors and lays the sum out as a row, changes the two weight matrices' float format, and copies `c` into the
  buffer of its second result. At each band it forms (x_band·wi + h_band·wh) + bias_row, takes the four bands of
  1024 gate columns, applies the logistic function to three of them and tanh to the fourth, and stores
  c' = σ(f)·c_band + σ(i)·tanh(g) and h' = σ(o)·tanh(c'). The reference program does the same on the whole arrays,
  spelling each logistic gate as the quotient 1 / (1 + e^(-v)).

  Over the extended reals these are one function of the seven arguments (module CellSpec): a change of float format
  is the identity; a matrix product accumulated into zero is the plain sum over the 1024 features, as the reference's
  contraction is; the quotient with the constant one IS the logistic function, by its definition; a cell's row
  depends only on the same row of `x`, `h`, `c`, so the bands are rows of the whole result, and the sixteen bands
  cover the 4096 rows. Both programs group and order every sum and product alike, so no algebraic law is used and the
  precondition (finite inputs) is never opened: the two results agree on all extended-real inputs.

  The modules: CellSpec (the function), RefCell (the reference computes it), KernelGates (the pre-activation block at
  an entry), KernelBand (one band, over arbitrary blocks), KernelRun (the bands at the grid points, the cover, the
  kernel's run). Here: the three frames — each program terminates, faults nowhere and leaves its arguments as
  launched —, the idealization statement (the ideal reading rewrote nothing, so it is `True`), and the equality of
  the two results.
-/
import proofs.«151122_j13030930776239_2_alg».proof.Defs
import proofs.«151122_j13030930776239_2_alg».proof.Proof.Gen.Kernel
import proofs.«151122_j13030930776239_2_alg».proof.Proof.Gen.Kernel.Skeleton
import proofs.«151122_j13030930776239_2_alg».proof.Proof.Gen.Kernel.Launch
import proofs.«151122_j13030930776239_2_alg».proof.Proof.Gen.Kernel.Points
import proofs.«151122_j13030930776239_2_alg».proof.Proof.Gen.Kernel.Frame
import proofs.«151122_j13030930776239_2_alg».proof.Proof.Gen.KernelIdeal
import proofs.«151122_j13030930776239_2_alg».proof.Proof.Gen.KernelIdeal.Skeleton
import proofs.«151122_j13030930776239_2_alg».proof.Proof.Gen.KernelIdeal.Launch
import proofs.«151122_j13030930776239_2_alg».proof.Proof.Gen.KernelIdeal.Points
import proofs.«151122_j13030930776239_2_alg».proof.Proof.Gen.KernelIdeal.Frame
import proofs.«151122_j13030930776239_2_alg».proof.Proof.Gen.ReferenceIdeal
import proofs.«151122_j13030930776239_2_alg».proof.Proof.Gen.Pre_finite_inputs
import proofs.«151122_j13030930776239_2_alg».proof.Proof.Gen.KernelIdeal.Value
import proofs.«151122_j13030930776239_2_alg».proof.Proof.Gen.ReferenceIdeal.Run
import proofs.«151122_j13030930776239_2_alg».proof.Proof.Gen.ReferenceIdeal.Read
import proofs.«151122_j13030930776239_2_alg».proof.Proof.KernelRun
import proofs.«151122_j13030930776239_2_alg».proof.Proof.RefCell
import Idealize.ShloMosaic.Adequacy
import Idealize.ShloMosaic.Init

noncomputable section

namespace Cert.Proof

open Idealize.ShloMosaic Idealize.SL.Sem

/-- The word-level kernel program terminates, faults nowhere and leaves its arguments unchanged. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run, with what it says of the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Reading the kernel program over the extended reals rewrote none of its operations. -/
theorem preserves : Cert.preserves_Kernel_KernelIdeal := trivial

/-- From memories that agree on the seven arguments both programs end with the hidden result at the specification's
    hidden array and the cell result at its cell array, of those arguments. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun r h c => ?_) (Cert.ReferenceIdeal.Value.run (F := Ideal) m' ρ')
  obtain ⟨a0, a1, a2, a3, a4, a5, a6⟩ := hagree c
  obtain ⟨h34, h32, hargs⟩ := h c
  refine ⟨?_, ?_, hargs⟩
  · refine (h34.trans (Cert.ReferenceIdeal.Read.val_main_v34_eq _ _ _ _ _ _ _)).trans
      ((Cert.ReferenceIdeal.Cell.hidden_eq _ _ _ _ _ _ _).trans ?_)
    rw [a0, a1, a2, a3, a4, a5, a6]
  · refine (h32.trans (Cert.ReferenceIdeal.Read.val_main_v32_eq _ _ _ _ _ _ _)).trans
      ((Cert.ReferenceIdeal.Cell.cell_eq _ _ _ _ _ _ _).trans ?_)
    rw [a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
